-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1000000 : Shape := ⟨2, ![2, 1000000]⟩
abbrev S100000 : Shape := ⟨1, ![100000]⟩
abbrev S32x128 : Shape := ⟨2, ![32, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64 .f32) (main_arg7 : FVec F S64x64 .f32) (main_arg8 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x32 .f32) (main_arg1 : IVec S2x1000000 32) (main_arg2 : IVec S100000 32) (main_arg3 : FVec F S32x128 .f32) (main_arg4 : FVec F S128 .f32) (main_arg5 : FVec F S128x64 .f32) (main_arg6 : FVec F S64 .f32) (main_arg7 : FVec F S64x64 .f32) (main_arg8 : FVec F S64 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x128 .f32 := Host.absf main_arg3
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_v13 main_v16
-- ==== Kernel.lean ====
abbrev S100000x32 : Shape := ⟨2, ![100000, 32]⟩
abbrev S2x1000000 : Shape := ⟨2, ![2, 1000000]⟩
abbrev S100000 : Shape := ⟨1, ![100000]⟩
abbrev S32x128 : Shape := ⟨2, ![32, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x128 : Shape := ⟨2, ![100000, 128]⟩
abbrev S5000x32 : Shape := ⟨2, ![5000, 32]⟩
abbrev S5000x128 : Shape := ⟨2, ![5000, 128]⟩
abbrev S1100000x128 : Shape := ⟨2, ![1100000, 128]⟩
abbrev S1x128 : Shape := ⟨2, ![1, 128]⟩
abbrev S100000x64 : Shape := ⟨2, ![100000, 64]⟩
abbrev S5000x64 : Shape := ⟨2, ![5000, 64]⟩
abbrev S1100000x64 : Shape := ⟨2, ![1100000, 64]⟩
abbrev S1x64 : Shape := ⟨2, ![1, 64]⟩
abbrev S100000x1 : Shape := ⟨2, ![100000, 1]⟩
abbrev S64x1 : Shape := ⟨2, ![64, 1]⟩

abbrev nBuf : Space → Nat
  | .hbm => 110
  | .vmem => 16
  | .smem => 0
  | _ => 0

abbrev bufTy : (tb : Table) → Fin (tcTables nBuf tb) → BufTy
  | .hbm, ⟨0, _⟩ => ⟨S100000x32, .f32⟩
  | .hbm, ⟨1, _⟩ => ⟨S2x1000000, .i32⟩
  | .hbm, ⟨2, _⟩ => ⟨S100000, .i32⟩
  | .hbm, ⟨3, _⟩ => ⟨S32x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S100000, .i32⟩
  | .hbm, ⟨10, _⟩ => ⟨S1x1000000, .i32⟩
  | .hbm, ⟨11, _⟩ => ⟨S1000000, .i32⟩
  | .hbm, ⟨12, _⟩ => ⟨S1100000, .i32⟩
  | .hbm, ⟨13, _⟩ => ⟨S1x1000000, .i32⟩
  | .hbm, ⟨14, _⟩ => ⟨S1000000, .i32⟩
  | .hbm, ⟨15, _⟩ => ⟨S1100000, .i32⟩
  | .hbm, ⟨16, _⟩ => ⟨S_, .f32⟩
  | .hbm, ⟨17, _⟩ => ⟨S1100000, .f32⟩
  | .hbm, ⟨18, _⟩ => ⟨S_, .f32⟩
  | .hbm, ⟨19, _⟩ => ⟨S100000, .f32⟩
  | .hbm, ⟨20, _⟩ => ⟨S1100000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1100000, .i32⟩
  | .hbm, ⟨32, _⟩ => ⟨S1100000, .i1⟩
  | .hbm, ⟨33, _⟩ => ⟨S_, .i32⟩
  | .hbm, ⟨34, _⟩ => ⟨S1100000, .i32⟩
  | .hbm, ⟨35, _⟩ => ⟨S1100000, .i32⟩
  | .hbm, ⟨36, _⟩ => ⟨S1100000, .i32⟩
  | .hbm, ⟨37, _⟩ => ⟨S1100000x1, .i32⟩
  | .hbm, ⟨38, _⟩ => ⟨S1100000, .f32⟩
  | .hbm, ⟨39, _⟩ => ⟨S_, .i32⟩
  | .hbm, ⟨40, _⟩ => ⟨S1100000, .i32⟩
  | .hbm, ⟨41, _⟩ => ⟨S1100000, .i1⟩
  | .hbm, ⟨42, _⟩ => ⟨S_, .i32⟩
  | .hbm, ⟨43, _⟩ => ⟨S1100000, .i32⟩
  | .hbm, ⟨44, _⟩ => ⟨S1100000, .i32⟩
  | .hbm, ⟨45, _⟩ => ⟨S1100000, .i32⟩
  | .hbm, ⟨46, _⟩ => ⟨S1100000x1, .i32⟩
  | .hbm, ⟨47, _⟩ => ⟨S1100000, .f32⟩
  | .hbm, ⟨48, _⟩ => ⟨S1100000, .f32⟩
  | .hbm, ⟨49, _⟩ => ⟨S100000x128, .f32⟩
  | .hbm, ⟨50, _⟩ => ⟨S_, .i32⟩
  | .hbm, ⟨51, _⟩ => ⟨S1100000, .i32⟩
  | .hbm, ⟨52, _⟩ => ⟨S1100000, .i1⟩
  | .hbm, ⟨53, _⟩ => ⟨S_, .i32⟩
  | .hbm, ⟨54, _⟩ => ⟨S1100000, .i32⟩
  | .hbm, ⟨55, _⟩ => ⟨S1100000, .i32⟩
  | .hbm, ⟨56, _⟩ => ⟨S1100000, .i32⟩
  | .hbm, ⟨57, _⟩ => ⟨S1100000x1, .i32⟩
  | .hbm, ⟨58, _⟩ => ⟨S1100000x128, .f32⟩
  | .hbm, ⟨59, _⟩ => ⟨S1100000x1, .f32⟩
  | .hbm, ⟨60, _⟩ => ⟨S1100000x128, .f32⟩
  | .hbm, ⟨61, _⟩ => ⟨S1100000x128, .f32⟩
  | .hbm, ⟨62, _⟩ => ⟨S_, .f32⟩
  | .hbm, ⟨63, _⟩ => ⟨S100000x128, .f32⟩
  | .hbm, ⟨64, _⟩ => ⟨S1100000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1100000, .i32⟩
  | .hbm, ⟨72, _⟩ => ⟨S1100000, .i1⟩
  | .hbm, ⟨73, _⟩ => ⟨S_, .i32⟩
  | .hbm, ⟨74, _⟩ => ⟨S1100000, .i32⟩
  | .hbm, ⟨75, _⟩ => ⟨S1100000, .i32⟩
  | .hbm, ⟨76, _⟩ => ⟨S1100000, .i32⟩
  | .hbm, ⟨77, _⟩ => ⟨S1100000x1, .i32⟩
  | .hbm, ⟨78, _⟩ => ⟨S1100000x64, .f32⟩
  | .hbm, ⟨79, _⟩ => ⟨S1100000x1, .f32⟩
  | .hbm, ⟨80, _⟩ => ⟨S1100000x64, .f32⟩
  | .hbm, ⟨81, _⟩ => ⟨S1100000x64, .f32⟩
  | .hbm, ⟨82, _⟩ => ⟨S_, .f32⟩
  | .hbm, ⟨83, _⟩ => ⟨S100000x64, .f32⟩
  | .hbm, ⟨84, _⟩ => ⟨S1100000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S_, .f32⟩
  | .hbm, ⟨92, _⟩ => ⟨S64x64, .f32⟩
  | .hbm, ⟨93, _⟩ => ⟨S100000x1, .i32⟩
  | .hbm, ⟨94, _⟩ => ⟨S64x64, .f32⟩
  | .hbm, ⟨95, _⟩ => ⟨S_, .f32⟩
  | .hbm, ⟨96, _⟩ => ⟨S100000, .f32⟩
  | .hbm, ⟨97, _⟩ => ⟨S_, .f32⟩
  | .hbm, ⟨98, _⟩ => ⟨S64, .f32⟩
  | .hbm, ⟨99, _⟩ => ⟨S100000x1, .i32⟩
  | .hbm, ⟨100, _⟩ => ⟨S64, .f32⟩
  | .hbm, ⟨101, _⟩ => ⟨S_, .f32⟩
  | .hbm, ⟨102, _⟩ => ⟨S64, .f32⟩
  | .hbm, ⟨103, _⟩ => ⟨S64, .f32⟩
  | .hbm, ⟨104, _⟩ => ⟨S64x1, .f32⟩
  | .hbm, ⟨105, _⟩ => ⟨S64x64, .f32⟩
  | .hbm, ⟨106, _⟩ => ⟨S64x64, .f32⟩
  | .hbm, ⟨107, _⟩ => ⟨S_, .f32⟩
  | .hbm, ⟨108, _⟩ => ⟨S64x64, .f32⟩
  | .hbm, ⟨109, _⟩ => ⟨S64x64, .f32⟩
  | .local _ .vmem, ⟨0, _⟩ => ⟨S5000x32, .f32⟩
  | .local _ .vmem, ⟨1, _⟩ => ⟨S5000x32, .f32⟩
  | .local _ .vmem, ⟨2, _⟩ => ⟨S32x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_15 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S5000x32_S5000x32_0_0 : ∀ a, (![0, 0] : Fin 2 → Nat) a + S5000x32.size a ≤ S5000x32.size a
  h_S5000x32 : 0 < S5000x32.numel
  inb_S32x128_S32x128_0_0 : ∀ a, (![0, 0] : Fin 2 → Nat) a + S32x128.size a ≤ S32x128.size a
  h_S32x128 : 0 < S32x128.numel
  inb_S5000x128_S5000x128_0_0 : ∀ a, (![0, 0] : Fin 2 → Nat) a + S5000x128.size a ≤ S5000x128.size a
  h_S5000x128 : 0 < S5000x128.numel
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S64_S1x64 : S64.ShapeCasts S1x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S5000x32_S32x128_S5000x128_1_0_0_1_n_n_wf : DotDims.WF S5000x32 S32x128 S5000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S5000x128_S128x64_S5000x64_1_0_0_1_n_n_wf : DotDims.WF S5000x128 S128x64 S5000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S5000x64_S64x64_S5000x64_1_0_0_1_n_n_wf : DotDims.WF S5000x64 S64x64 S5000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x1000000 : Shape := ⟨2, ![2, 1000000]⟩
abbrev S100000 : Shape := ⟨1, ![100000]⟩
abbrev S32x128 : Shape := ⟨2, ![32, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x128 : Shape := ⟨2, ![100000, 128]⟩
abbrev S1100000x128 : Shape := ⟨2, ![1100000, 128]⟩
abbrev S1x128 : Shape := ⟨2, ![1, 128]⟩
abbrev S100000x64 : Shape := ⟨2, ![100000, 64]⟩
abbrev S1100000x64 : Shape := ⟨2, ![1100000, 64]⟩
abbrev S1x64 : Shape := ⟨2, ![1, 64]⟩
abbrev S100000x1 : Shape := ⟨2, ![100000, 1]⟩
abbrev S64x1 : Shape := ⟨2, ![64, 1]⟩

abbrev nBuf : Space → Nat
  | .hbm => 134
  | .vmem => 0
  | .smem => 0
  | _ => 0

abbrev hbmTy0_0 (i : Nat) : BufTy := match i % 128 with
  | 0 => ⟨S100000x32, .f32⟩
  | 1 => ⟨S2x1000000, .i32⟩
  | 2 => ⟨S100000, .i32⟩
  | 3 => ⟨S32x128, .f32⟩
  | 4 => ⟨S128, .f32⟩
  | 5 => ⟨S128x64, .f32⟩
  | 6 => ⟨S64, .f32⟩
  | 7 => ⟨S64x64, .f32⟩
  | 8 => ⟨S64, .f32⟩
  | 9 => ⟨S100000, .i32⟩
  | 10 => ⟨S1x1000000, .i32⟩
  | 11 => ⟨S1000000, .i32⟩
  | 12 => ⟨S1100000, .i32⟩
  | 13 => ⟨S1x1000000, .i32⟩
  | 14 => ⟨S1000000, .i32⟩
  | 15 => ⟨S1100000, .i32⟩
  | 16 => ⟨S_, .f32⟩
  | 17 => ⟨S1100000, .f32⟩
  | 18 => ⟨S_, .f32⟩
  | 19 => ⟨S100000, .f32⟩
  | 20 => ⟨S1100000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S100000x128, .f32⟩
  | 31 => ⟨S_, .i32⟩
  | 32 => ⟨S1100000, .i32⟩
  | 33 => ⟨S1100000, .i1⟩
  | 34 => ⟨S_, .i32⟩
  | 35 => ⟨S1100000, .i32⟩
  | 36 => ⟨S1100000, .i32⟩
  | 37 => ⟨S1100000, .i32⟩
  | 38 => ⟨S1100000x1, .i32⟩
  | 39 => ⟨S1100000, .f32⟩
  | 40 => ⟨S_, .i32⟩
  | 41 => ⟨S1100000, .i32⟩
  | 42 => ⟨S1100000, .i1⟩
  | 43 => ⟨S_, .i32⟩
  | 44 => ⟨S1100000, .i32⟩
  | 45 => ⟨S1100000, .i32⟩
  | 46 => ⟨S1100000, .i32⟩
  | 47 => ⟨S1100000x1, .i32⟩
  | 48 => ⟨S1100000, .f32⟩
  | 49 => ⟨S1100000, .f32⟩
  | 50 => ⟨S1100000x1, .f32⟩
  | 51 => ⟨S_, .i32⟩
  | 52 => ⟨S1100000, .i32⟩
  | 53 => ⟨S1100000, .i1⟩
  | 54 => ⟨S_, .i32⟩
  | 55 => ⟨S1100000, .i32⟩
  | 56 => ⟨S1100000, .i32⟩
  | 57 => ⟨S1100000, .i32⟩
  | 58 => ⟨S1100000x1, .i32⟩
  | 59 => ⟨S1100000x128, .f32⟩
  | 60 => ⟨S1100000x128, .f32⟩
  | 61 => ⟨S1100000x128, .f32⟩
  | 62 => ⟨S_, .f32⟩
  | 63 => ⟨S100000x128, .f32⟩
  | 64 => ⟨S1100000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x64, .f32⟩
  | 73 => ⟨S_, .i32⟩
  | 74 => ⟨S1100000, .i32⟩
  | 75 => ⟨S1100000, .i1⟩
  | 76 => ⟨S_, .i32⟩
  | 77 => ⟨S1100000, .i32⟩
  | 78 => ⟨S1100000, .i32⟩
  | 79 => ⟨S1100000, .i32⟩
  | 80 => ⟨S1100000x1, .i32⟩
  | 81 => ⟨S1100000, .f32⟩
  | 82 => ⟨S_, .i32⟩
  | 83 => ⟨S1100000, .i32⟩
  | 84 => ⟨S1100000, .i1⟩
  | 85 => ⟨S_, .i32⟩
  | 86 => ⟨S1100000, .i32⟩
  | 87 => ⟨S1100000, .i32⟩
  | 88 => ⟨S1100000, .i32⟩
  | 89 => ⟨S1100000x1, .i32⟩
  | 90 => ⟨S1100000, .f32⟩
  | 91 => ⟨S1100000, .f32⟩
  | 92 => ⟨S1100000x1, .f32⟩
  | 93 => ⟨S_, .i32⟩
  | 94 => ⟨S1100000, .i32⟩
  | 95 => ⟨S1100000, .i1⟩
  | 96 => ⟨S_, .i32⟩
  | 97 => ⟨S1100000, .i32⟩
  | 98 => ⟨S1100000, .i32⟩
  | 99 => ⟨S1100000, .i32⟩
  | 100 => ⟨S1100000x1, .i32⟩
  | 101 => ⟨S1100000x64, .f32⟩
  | 102 => ⟨S1100000x64, .f32⟩
  | 103 => ⟨S1100000x64, .f32⟩
  | 104 => ⟨S_, .f32⟩
  | 105 => ⟨S100000x64, .f32⟩
  | 106 => ⟨S1100000x1, .i32⟩
  | 107 => ⟨S100000x64, .f32⟩
  | 108 => ⟨S1x64, .f32⟩
  | 109 => ⟨S100000x64, .f32⟩
  | 110 => ⟨S100000x64, .f32⟩
  | 111 => ⟨S100000x64, .f32⟩
  | 112 => ⟨S1x64, .f32⟩
  | 113 => ⟨S100000x64, .f32⟩
  | 114 => ⟨S100000x64, .f32⟩
  | 115 => ⟨S_, .f32⟩
  | 116 => ⟨S64x64, .f32⟩
  | 117 => ⟨S100000x1, .i32⟩
  | 118 => ⟨S64x64, .f32⟩
  | 119 => ⟨S_, .f32⟩
  | 120 => ⟨S100000, .f32⟩
  | 121 => ⟨S_, .f32⟩
  | 122 => ⟨S64, .f32⟩
  | 123 => ⟨S100000x1, .i32⟩
  | 124 => ⟨S64, .f32⟩
  | 125 => ⟨S_, .f32⟩
  | 126 => ⟨S64, .f32⟩
  | 127 => ⟨S64, .f32⟩
  | _ => ⟨S100000x32, .f32⟩

abbrev hbmTy0_1 (i : Nat) : BufTy := match i % 128 with
  | 0 => ⟨S64x1, .f32⟩
  | 1 => ⟨S64x64, .f32⟩
  | 2 => ⟨S64x64, .f32⟩
  | 3 => ⟨S_, .f32⟩
  | 4 => ⟨S64x64, .f32⟩
  | 5 => ⟨S64x64, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_16 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_17 : Ref sig .tc := ⟨.hbm, 119, rfl⟩
abbrev main_v87 : Ref sig .tc := ⟨.hbm, 120, rfl⟩
abbrev main_cst_18 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_19 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_20 : Ref sig .tc := ⟨.hbm, 131, rfl⟩
abbrev main_v96 : Ref sig .tc := ⟨.hbm, 132, rfl⟩
abbrev main_v97 : Ref sig .tc := ⟨.hbm, 133, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1100000x1_S1100000_n_0_0_1_wf : ScatterDims.WF S100000 S1100000x1 S1100000 [] [0] [0] 1
  dot_S100000x32_S32x128_S100000x128_1_0_0_1_n_n_wf : DotDims.WF S100000x32 S32x128 S100000x128 [1] [0] [0] [1] [] []
  gather_S100000_S1100000x1_S1100000_n_0_n_n_0_1_1_wf : GatherDims.WF S100000 S1100000x1 S1100000 [] [0] [] [0] [] 1 ![1]
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S100000x128_S128x64_S100000x64_1_0_0_1_n_n_wf : DotDims.WF S100000x128 S128x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.Spec.lean ====
/-
  The graph-convolution forward pass as one function of its nine argument arrays, in named stages.

  Nodes 0 … 99999 carry 32 features; the edge list has 1000000 (source, target) pairs, to which one self-loop per
  node is appended (`src`, `dst`: 1100000 entries each). With deg(v) the number of list entries whose target is v and
  dis(v) = deg(v)^(-1/2) where deg(v) > 0 and 0 elsewhere, an edge e weighs norm(e) = dis(src e) · dis(dst e), and one
  convolution of node rows H with bias b is

      conv(H, b)(v, ·) = Σ_{e : dst e = v} H(src e, ·) · norm(e) + b.

  The network is  h₁ = conv(x·W1, b1),  h₂ = conv(relu(h₁)·W2, b2),  h₃ = h₂·Wrt + brt,  and the result is the mean of
  the rows of h₃ over each of the 64 graphs named by `batch`: the sum of a graph's rows divided by max(its row count, 1),
  times 1.  An index into a gathered array is first wrapped (a negative index i stands for i + 100000), as array
  indexing does.  Every stage is spelt with the host operations of the reference program, over its shapes and dimension
  records, so the reference's composed result term is `result` by unfolding.
-/
import proofs.«108551_j9543417332457_1_alg».proof.Proof.Gen.ReferenceIdeal
import Idealize.ShloMosaic.PureOps.Ideal

noncomputable section

namespace Cert.Gcn

open Cert.ReferenceIdeal Cert.ReferenceIdeal.Gen Idealize.ShloMosaic

variable {F : FTy → Type} [FloatOps F]

/-! ## Scalars spread over an array -/

/-- The rank-0 arrays 0.0 and 1.0, and the integers 0 and 100000. -/
def zeroS : (⟨S_, .f32⟩ : BufTy).Contents (Elt F) := constant S_ .f32 0x00000000#32
def oneS : (⟨S_, .f32⟩ : BufTy).Contents (Elt F) := constant S_ .f32 0x3F800000#32
def izeroS : (⟨S_, .i32⟩ : BufTy).Contents (Elt F) := constantI S_ 32 0#32
def inodesS : (⟨S_, .i32⟩ : BufTy).Contents (Elt F) := constantI S_ 32 100000#32

/-! ## The edge list with self-loops, and the edge weights -/

/-- The sources: row 0 of the edge list, then the nodes 0 … 99999 (the self-loops). -/
def src (ei : (⟨S2x1000000, .i32⟩ : BufTy).Contents (Elt F)) : (⟨S1100000, .i32⟩ : BufTy).Contents (Elt F) :=
  concatenate S1100000 0 [⟨S1000000, (shapeCast _ (extractStridedSlice S1x1000000 ![0, 0] ei slices_S2x1000000_S1x1000000_0_0) shapeCasts_S1x1000000_S1000000)⟩, ⟨S100000, (iotaInDim S100000 32 0)⟩] concatenates_S1000000_S100000_S1100000_d0

/-- The targets: row 1 of the edge list, then the nodes 0 … 99999. -/
def dst (ei : (⟨S2x1000000, .i32⟩ : BufTy).Contents (Elt F)) : (⟨S1100000, .i32⟩ : BufTy).Contents (Elt F) :=
  concatenate S1100000 0 [⟨S1000000, (shapeCast _ (extractStridedSlice S1x1000000 ![1, 0] ei slices_S2x1000000_S1x1000000_1_0) shapeCasts_S1x1000000_S1000000)⟩, ⟨S100000, (iotaInDim S100000 32 0)⟩] concatenates_S1000000_S100000_S1100000_d0

/-- A per-edge list as a column [1100000, 1] (the form the gather and scatter take their indices in, and the form a
    per-edge weight is spread over a row from). -/
def col {T : EltTy} (v : (⟨S1100000, T⟩ : BufTy).Contents (Elt F)) : (⟨S1100000x1, T⟩ : BufTy).Contents (Elt F) :=
  broadcastInDim S1100000x1 ![0] bcast_S1100000_S1100000x1_0 v

/-- Array indexing's wrap of a per-edge index: i + 100000 where i < 0, else i. -/
def wrap (idx : (⟨S1100000, .i32⟩ : BufTy).Contents (Elt F)) : (⟨S1100000, .i32⟩ : BufTy).Contents (Elt F) :=
  select (cmpi .slt idx (broadcastInDim S1100000 ![] bcast_S_S1100000 (izeroS (F := F))))
    (addi idx (broadcastInDim S1100000 ![] bcast_S_S1100000 (inodesS (F := F)))) idx

/-- deg(v): one for every list entry whose target is v, summed into zeros. -/
def deg (ei : (⟨S2x1000000, .i32⟩ : BufTy).Contents (Elt F)) : (⟨S100000, .f32⟩ : BufTy).Contents (Elt F) :=
  Host.scatterAdd scatter_S100000_S1100000x1_S1100000_n_0_0_1 (broadcastInDim S100000 ![] bcast_S_S100000 (zeroS (F := F)))
    (col (dst (F := F) ei)) (broadcastInDim S1100000 ![] bcast_S_S1100000 (oneS (F := F)))

/-- dis(v) = deg(v)^(-1/2) where deg(v) > 0, and 0 elsewhere. -/
def dis (ei : (⟨S2x1000000, .i32⟩ : BufTy).Contents (Elt F)) : (⟨S100000, .f32⟩ : BufTy).Contents (Elt F) :=
  select (cmpf (F := F) .ogt (deg (F := F) ei) (broadcastInDim S100000 ![] bcast_S_S100000 (zeroS (F := F))))
    (Host.rsqrt (deg (F := F) ei)) (broadcastInDim S100000 ![] bcast_S_S100000 (id (zeroS (F := F))))

/-- norm(e) = dis(src e) · dis(dst e). -/
def norm (ei : (⟨S2x1000000, .i32⟩ : BufTy).Contents (Elt F)) : (⟨S1100000, .f32⟩ : BufTy).Contents (Elt F) :=
  mulf (Host.gather gather_S100000_S1100000x1_S1100000_n_0_n_n_0_1_1 (dis (F := F) ei) (col (wrap (src (F := F) ei))))
    (Host.gather gather_S100000_S1100000x1_S1100000_n_0_n_n_0_1_1 (dis (F := F) ei) (col (wrap (dst (F := F) ei))))

/-! ## The dense products -/

def lin1 (x : (⟨S100000x32, .f32⟩ : BufTy).Contents (Elt F)) (W1 : (⟨S32x128, .f32⟩ : BufTy).Contents (Elt F)) :
    (⟨S100000x128, .f32⟩ : BufTy).Contents (Elt F) :=
  Host.dotGeneral dot_S100000x32_S32x128_S100000x128_1_0_0_1_n_n none x W1

/-- relu, then the product with W2. -/
def lin2 (h : (⟨S100000x128, .f32⟩ : BufTy).Contents (Elt F)) (W2 : (⟨S128x64, .f32⟩ : BufTy).Contents (Elt F)) :
    (⟨S100000x64, .f32⟩ : BufTy).Contents (Elt F) :=
  Host.dotGeneral dot_S100000x128_S128x64_S100000x64_1_0_0_1_n_n none
    (maximumf h (broadcastInDim S100000x128 ![] bcast_S_S100000x128 (zeroS (F := F)))) W2

/-- The product with Wrt plus the bias row brt on every row. -/
def lin3 (h : (⟨S100000x64, .f32⟩ : BufTy).Contents (Elt F)) (Wrt : (⟨S64x64, .f32⟩ : BufTy).Contents (Elt F))
    (brt : (⟨S64, .f32⟩ : BufTy).Contents (Elt F)) : (⟨S100000x64, .f32⟩ : BufTy).Contents (Elt F) :=
  addf (Host.dotGeneral dot_S100000x64_S64x64_S100000x64_1_0_0_1_n_n none h Wrt)
    (broadcastInDim S100000x64 ![0, 1] bcast_S1x64_S100000x64_0_1 (broadcastInDim S1x64 ![1] bcast_S64_S1x64_1 brt))

/-! ## The two aggregations over the edges -/

/-- conv(H, b) for 128 columns, over edge ends `s`, `d` and weights `nrm`: gather H at the wrapped sources, weigh each
    row, sum the rows into their targets, add the bias row. -/
def agg128 (H : (⟨S100000x128, .f32⟩ : BufTy).Contents (Elt F)) (s d : (⟨S1100000, .i32⟩ : BufTy).Contents (Elt F))
    (nrm : (⟨S1100000, .f32⟩ : BufTy).Contents (Elt F)) (b : (⟨S128, .f32⟩ : BufTy).Contents (Elt F)) :
    (⟨S100000x128, .f32⟩ : BufTy).Contents (Elt F) :=
  addf (Host.scatterAdd scatter_S100000x128_S1100000x1_S1100000x128_1_0_0_1
      (broadcastInDim S100000x128 ![] bcast_S_S100000x128 (zeroS (F := F))) (col d)
      (mulf (Host.gather gather_S100000x128_S1100000x1_S1100000x128_1_0_n_n_0_1_1128 H (col (wrap s)))
        (broadcastInDim S1100000x128 ![0, 1] bcast_S1100000x1_S1100000x128_0_1 (col nrm))))
    (broadcastInDim S100000x128 ![0, 1] bcast_S1x128_S100000x128_0_1 (broadcastInDim S1x128 ![1] bcast_S128_S1x128_1 b))

/-- conv(H, b) for 64 columns. -/
def agg64 (H : (⟨S100000x64, .f32⟩ : BufTy).Contents (Elt F)) (s d : (⟨S1100000, .i32⟩ : BufTy).Contents (Elt F))
    (nrm : (⟨S1100000, .f32⟩ : BufTy).Contents (Elt F)) (b : (⟨S64, .f32⟩ : BufTy).Contents (Elt F)) :
    (⟨S100000x64, .f32⟩ : BufTy).Contents (Elt F) :=
  addf (Host.scatterAdd scatter_S100000x64_S1100000x1_S1100000x64_1_0_0_1
      (broadcastInDim S100000x64 ![] bcast_S_S100000x64 (zeroS (F := F))) (col d)
      (mulf (Host.gather gather_S100000x64_S1100000x1_S1100000x64_1_0_n_n_0_1_164 H (col (wrap s)))
        (broadcastInDim S1100000x64 ![0, 1] bcast_S1100000x1_S1100000x64_0_1 (col nrm))))
    (broadcastInDim S100000x64 ![0, 1] bcast_S1x64_S100000x64_0_1 (broadcastInDim S1x64 ![1] bcast_S64_S1x64_1 b))

/-! ## The mean over each graph -/

/-- The rows of `h` summed per graph, divided by max(the graph's row count, 1), times 1. -/
def pool (h : (⟨S100000x64, .f32⟩ : BufTy).Contents (Elt F)) (batch : (⟨S100000, .i32⟩ : BufTy).Contents (Elt F)) :
    (⟨S64x64, .f32⟩ : BufTy).Contents (Elt F) :=
  mulf (Host.divf
      (Host.scatterAdd scatter_S64x64_S100000x1_S100000x64_1_0_0_1 (broadcastInDim S64x64 ![] bcast_S_S64x64 (zeroS (F := F)))
        (broadcastInDim S100000x1 ![0] bcast_S100000_S100000x1_0 batch) h)
      (broadcastInDim S64x64 ![0, 1] bcast_S64x1_S64x64_0_1 (broadcastInDim S64x1 ![0] bcast_S64_S64x1_0
        (maximumf
          (Host.scatterAdd scatter_S64_S100000x1_S100000_n_0_0_1 (broadcastInDim S64 ![] bcast_S_S64 (zeroS (F := F)))
            (broadcastInDim S100000x1 ![0] bcast_S100000_S100000x1_0 batch) (broadcastInDim S100000 ![] bcast_S_S100000 (oneS (F := F))))
          (broadcastInDim S64 ![] bcast_S_S64 (oneS (F := F)))))))
    (broadcastInDim S64x64 ![] bcast_S_S64x64 (oneS (F := F)))

/-! ## The network -/

/-- h₁ = conv(x·W1, b1). -/
def h1 (x : (⟨S100000x32, .f32⟩ : BufTy).Contents (Elt F)) (ei : (⟨S2x1000000, .i32⟩ : BufTy).Contents (Elt F))
    (W1 : (⟨S32x128, .f32⟩ : BufTy).Contents (Elt F)) (b1 : (⟨S128, .f32⟩ : BufTy).Contents (Elt F)) :
    (⟨S100000x128, .f32⟩ : BufTy).Contents (Elt F) :=
  agg128 (lin1 x W1) (src (F := F) ei) (dst (F := F) ei) (norm (F := F) ei) b1

/-- h₂ = conv(relu(h₁)·W2, b2). -/
def h2 (x : (⟨S100000x32, .f32⟩ : BufTy).Contents (Elt F)) (ei : (⟨S2x1000000, .i32⟩ : BufTy).Contents (Elt F))
    (W1 : (⟨S32x128, .f32⟩ : BufTy).Contents (Elt F)) (b1 : (⟨S128, .f32⟩ : BufTy).Contents (Elt F))
    (W2 : (⟨S128x64, .f32⟩ : BufTy).Contents (Elt F)) (b2 : (⟨S64, .f32⟩ : BufTy).Contents (Elt F)) :
    (⟨S100000x64, .f32⟩ : BufTy).Contents (Elt F) :=
  agg64 (lin2 (h1 x ei W1 b1) W2) (src (F := F) ei) (dst (F := F) ei) (norm (F := F) ei) b2

/-- The pooled output of the whole network. -/
def result (x : (⟨S100000x32, .f32⟩ : BufTy).Contents (Elt F)) (ei : (⟨S2x1000000, .i32⟩ : BufTy).Contents (Elt F))
    (batch : (⟨S100000, .i32⟩ : BufTy).Contents (Elt F))
    (W1 : (⟨S32x128, .f32⟩ : BufTy).Contents (Elt F)) (b1 : (⟨S128, .f32⟩ : BufTy).Contents (Elt F))
    (W2 : (⟨S128x64, .f32⟩ : BufTy).Contents (Elt F)) (b2 : (⟨S64, .f32⟩ : BufTy).Contents (Elt F))
    (Wrt : (⟨S64x64, .f32⟩ : BufTy).Contents (Elt F)) (brt : (⟨S64, .f32⟩ : BufTy).Contents (Elt F)) :
    (⟨S64x64, .f32⟩ : BufTy).Contents (Elt F) :=
  pool (lin3 (h2 x ei W1 b1 W2 b2) Wrt brt) batch

end Cert.Gcn

end
-- ==== Proof.RefIsSpec.lean ====
/-
  The reference program computes `Gcn.result`.

  The reference's run ends with its result buffer at one composed term of the nine argument arrays: every host
  operation applied to the terms of its operands, each shared value written out again at every use. `Gcn.result` names
  the same operations stage by stage (edge ends, degrees, edge weights, the two aggregations, the three dense
  products, the pooling), so the composed term is `result` of the arguments once the stages are unfolded; the
  edge weights, which the reference computes a second time for the second aggregation, are the same term both times.
-/
import proofs.«108551_j9543417332457_1_alg».proof.Proof.RefRun
import proofs.«108551_j9543417332457_1_alg».proof.Proof.Spec

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 16384 in
/-- The reference run's result term is the network's output of the argument arrays. -/
theorem result_eq (m : (ℓ : Loc nD τ sig) → Buf (Elt F) ℓ) (c : Dev nD) :
    Cert.ReferenceIdeal.RunP.res_main_v97 (F := F) m c
      = Cert.Gcn.result (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Cert.ReferenceIdeal.RunP.res_main_v97
  rfl

end Cert.ReferenceIdeal.RefValue

end
-- ==== Proof.KernelRun.lean ====
/-
  The idealized kernel's run with its result kept.

  The program is three pipelines among six stretches of host operations. The generated frame follows the buffer
  contents through the nine segment boundaries (`W0` at launch … `W9` at the return) and shows that every weakly fair
  execution terminates with every unscoped buffer at `W9`; of that it keeps the nine arguments. Here the same run is
  stated with the result buffer kept as well: it ends holding `W9` at the result's reference. What `W9` holds there, as a
  function of the arguments, is read off boundary by boundary in the modules that follow.
-/
import proofs.«108551_j9543417332457_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v79) = W9 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v79 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Run

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibStripDot.lean ====
/-
  A matrix product computed one strip of rows at a time.

  Row r of a product X · W depends only on row r of X. So if a block xb holds the rows o, o+1, …, o+m−1 of X
  and wb is all of W, the (p, q) entry of the block product xb · wb — as a tpu.matmul into the zero accumulator
  computes it — is the (o+p, q) entry of the whole product X · W — as the host's dot_general computes it: both
  are the sum over k of X (o+p, k) · W (k, q) on the extended reals. No finiteness is needed: the two sums have
  the same terms.
-/
import proofs.«108551_j9543417332457_1_alg».proof.Proof.LibPlainDot

noncomputable section

open scoped BigOperators

namespace Idealize.ShloMosaic.StripDot

open Idealize.ShloMosaic Idealize.ShloMosaic.ValueIdx

variable {m M K N : Nat}

/-- The block product of a strip of rows is that strip of the whole product, entry by entry. -/
theorem matmul_strip_apply {φ₁ φ₂ : FTy} (prec prec' : Option ContractPrecision) (sched : HostSchedule)
    (X : FVec Ideal ⟨2, ![M, K]⟩ φ₁) (W : FVec Ideal ⟨2, ![K, N]⟩ φ₂)
    (xb : FVec Ideal ⟨2, ![m, K]⟩ φ₁) (wb : FVec Ideal ⟨2, ![K, N]⟩ φ₂)
    (o : Nat) (ho : ∀ p : Fin m, o + p.val < M)
    (hx : ∀ (p : Fin m) (k : Fin K), xb (ix2 p k) = X (ix2 ⟨o + p.val, ho p⟩ k))
    (hw : ∀ (k : Fin K) (q : Fin N), wb (ix2 k q) = W (ix2 k q)) (p : Fin m) (q : Fin N) :
    FloatOps.matmul (DotDims.plain m K N) prec xb wb (constant ⟨2, ![m, N]⟩ .f32 0x00000000#32) (ix2 p q)
      = FloatOps.dotGeneral (DotDims.plain M K N) prec' sched X W (ix2 ⟨o + p.val, ho p⟩ q) := by
  rw [PlainDot.matmul_zero_apply, PlainDot.dotGeneral_apply]
  exact Finset.sum_congr rfl fun k _ => by rw [hx p k, hw k q]

end Idealize.ShloMosaic.StripDot

end
-- ==== Proof.Region0.lean ====
/-
  The first dense product, x · W1, as the first pipeline computes it.

  The pipeline walks 20 grid points. At point t it fetches rows 5000·t … 5000·t + 4999 of x (all 32 columns) and all of
  W1, multiplies the strip by W1 into a zero accumulator, and writes the 5000 × 128 block back as rows
  5000·t … 5000·t + 4999 of the result. Row r of a product depends only on row r of the left factor, so that block is
  those rows of the whole product x · W1; the 20 blocks tile the 100000 rows, so the array the pipeline leaves is
  x · W1 as the host's dot_general states it. Stated at any contents `V` the region may be entered with.
-/
import proofs.«108551_j9543417332457_1_alg».proof.Proof.Gen.KernelIdeal.Frame
import proofs.«108551_j9543417332457_1_alg».proof.Proof.LibStripDot
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The whole product. -/
abbrev G (X : S100000x32.Idx → EReal) (W : S32x128.Idx → EReal) : S100000x128.Idx → EReal :=
  Host.dotGeneral (F := Ideal) (φ₁ := .f32) (φ₂ := .f32) (DotDims.plain 100000 32 128) none X W

/-- The body's product of a strip of rows o … o + 4999 of X with W is those rows of the whole product. -/
theorem pay_at (X : S100000x32.Idx → EReal) (W : S32x128.Idx → EReal)
    (x0 : Vec Ideal S5000x32 .f32) (x1 : Vec Ideal S32x128 .f32) (o : Nat) (ho : ∀ p : Fin 5000, o + p.val < 100000)
    (hx : ∀ (p : Fin 5000) (k : Fin 32), x0 (ix2 p k) = X (ix2 ⟨o + p.val, ho p⟩ k))
    (hw : ∀ (k : Fin 32) (q : Fin 128), x1 (ix2 k q) = W (ix2 k q)) (j : S5000x128.Idx) :
    k0_pay1 (F := Ideal) x0 x1 j = G X W (ix2 ⟨o + (j 0).val, ho (j 0)⟩ (j 1)) := by
  obtain ⟨p, q, rfl⟩ : ∃ (p : Fin 5000) (q : Fin 128), j = ix2 p q := ⟨j 0, j 1, eq_ix2 j⟩
  unfold k0_pay1
  exact StripDot.matmul_strip_apply (φ₁ := .f32) (φ₂ := .f32) none none .single X W x0 x1 o ho hx hw p q

/-- The printed index maps over the 20 points: the strip of x and the block of the result move with the point, W1 stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem row_lt (t : Fin cfg0.N) (p : Fin 5000) : 5000 * t.val + p.val < 100000 := by
  have hN : cfg0.N = 20 := N_0
  have ht := t.isLt
  have hp := p.isLt
  omega

/-- The strip of x at point t: rows 5000·t … of the array as the region finds it. -/
theorem xblk_apply (c : Dev nD) (t : Fin cfg0.N) (p : Fin 5000) (k : Fin 32) :
    (iblk0 V c 0 t : Vec Ideal S5000x32 .f32) (ix2 p k)
      = (V c main_arg0 : S100000x32.Idx → EReal) (ix2 ⟨5000 * t.val + p.val, row_lt t p⟩ k) := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * p.val = 5000 * t.val + p.val; rw [e0]; omega
  | ⟨1, _⟩ => show win0_0.index t (1 : Fin 2) * 32 + 1 * k.val = k.val; rw [e1]; omega

/-- W1's block at every point is all of W1. -/
theorem wblk_apply (c : Dev nD) (t : Fin cfg0.N) (k : Fin 32) (q : Fin 128) :
    (iblk0 V c 1 t : Vec Ideal S32x128 .f32) (ix2 k q) = (V c main_arg3 : S32x128.Idx → EReal) (ix2 k q) := by
  obtain ⟨-, -, e0, e1, -⟩ := idx_facts t
  unfold iblk0
  rw [View.read_apply]
  show V c main_arg3 _ = V c main_arg3 _
  refine congrArg (V c main_arg3) ?_
  funext a
  apply Fin.ext
  match a with
  | ⟨0, _⟩ => show win0_1.index t (0 : Fin 2) * 32 + 1 * k.val = k.val; rw [e0]; omega
  | ⟨1, _⟩ => show win0_1.index t (1 : Fin 2) * 128 + 1 * q.val = q.val; rw [e1]; omega

/-- What point t writes back is block t of the whole product. -/
theorem flushed_eq (c : Dev nD) (t : Fin cfg0.N) :
    (dat0 V c).flushed 2 t = ((cfg0.win 2).blk t).view.read (Elt Ideal) (G (V c main_arg0) (V c main_arg3)) := by
  obtain ⟨-, -, -, -, e0, e1⟩ := idx_facts t
  show (cfg0.win 2).cut (grid0.coords t) ((dat0 V c).after 2 t) = _
  rw [after0_2]
  unfold out0_2
  rw [View.canon_unit_zero hz]
  simp only [View.ld_unit_zero (S := S5000x32) hz, View.ld_unit_zero (S := S32x128) hz]
  funext j
  show k0_pay1 (F := Ideal) (iblk0 V c 0 t) (iblk0 V c 1 t) j
    = G (V c main_arg0) (V c main_arg3) (((cfg0.win 2).blk t).view.emb j)
  refine (pay_at (V c main_arg0) (V c main_arg3) (iblk0 V c 0 t) (iblk0 V c 1 t) (5000 * t.val) (row_lt t) (xblk_apply V c t) (wblk_apply V c t) j).trans ?_
  refine congrArg (G (V c main_arg0) (V c main_arg3)) ?_
  funext a
  apply Fin.ext
  match a with
  | ⟨0, _⟩ => show 5000 * t.val + (j 0).val = win0_2.index t (0 : Fin 2) * 5000 + 1 * (j 0).val; rw [e0]; omega
  | ⟨1, _⟩ => show (j 1).val = win0_2.index t (1 : Fin 2) * 128 + 1 * (j 1).val; rw [e1]; omega

/-- An index of the result is in point t's block iff its row is one of the block's 5000 and its column any. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the result lies in the block of the point its row's strip belongs to. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_blk]
  obtain ⟨-, -, -, -, e0, e1⟩ := idx_facts ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e0]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e1]; omega

/-- The array the first pipeline leaves is x · W1. -/
theorem final (c : Dev nD) : (dat0 V c).arrAt 2 cfg0.N = G (V c main_arg0) (V c main_arg3) :=
  (dat0 V c).arrAt_eq_of_cover 2 (G (V c main_arg0) (V c main_arg3)) (fun t _ => flushed_eq V c t) cover

end Cert.KernelIdeal.Region0

end
-- ==== Proof.Region1.lean ====
/-
  The second dense product, relu(h₁) · W2, as the second pipeline computes it.

  At point t the pipeline fetches rows 5000·t … 5000·t + 4999 of h₁ (128 columns) and all of W2, takes the maximum of
  the strip with 0 entry by entry, multiplies by W2 into a zero accumulator and writes the 5000 × 64 block back as
  the same rows of the result. relu acts entry by entry and row r of a product depends only on row r of the left
  factor, so the block is those rows of relu(h₁) · W2 for the whole array h₁; the 20 blocks tile the 100000 rows.
  Stated at any contents `V` the region may be entered with.
-/
import proofs.«108551_j9543417332457_1_alg».proof.Proof.Gen.KernelIdeal.Frame
import proofs.«108551_j9543417332457_1_alg».proof.Proof.LibStripDot
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The 100000 × 128 array of zeros relu compares with. -/
abbrev Z : S100000x128.Idx → EReal :=
  broadcastInDim S100000x128 ![] bcast_S_S100000x128 (constant (F := Ideal) S_ .f32 0x00000000#32)

theorem Z_apply (i : S100000x128.Idx) : Z i = Ideal.ofBits .f32 0x00000000#32 :=
  broadcastInDim_apply _ bcast_S_S100000x128 (constant (F := Ideal) S_ .f32 0x00000000#32) i (fun a => a.elim0) (fun a => a.elim0)

/-- relu of the whole array, times W. -/
abbrev G (H : S100000x128.Idx → EReal) (W : S128x64.Idx → EReal) : S100000x64.Idx → EReal :=
  Host.dotGeneral (F := Ideal) (φ₁ := .f32) (φ₂ := .f32) (DotDims.plain 100000 128 64) none (maximumf (F := Ideal) (φ := .f32) H Z) W

/-- The body's relu and product on a strip of rows o … o + 4999 of H is those rows of relu(H) · W. -/
theorem pay_at (H : S100000x128.Idx → EReal) (W : S128x64.Idx → EReal)
    (x0 : Vec Ideal S5000x128 .f32) (x1 : Vec Ideal S128x64 .f32) (o : Nat) (ho : ∀ p : Fin 5000, o + p.val < 100000)
    (hx : ∀ (p : Fin 5000) (k : Fin 128), x0 (ix2 p k) = H (ix2 ⟨o + p.val, ho p⟩ k))
    (hw : ∀ (k : Fin 128) (q : Fin 64), x1 (ix2 k q) = W (ix2 k q)) (j : S5000x64.Idx) :
    k1_pay1 (F := Ideal) x0 x1 j = G H W (ix2 ⟨o + (j 0).val, ho (j 0)⟩ (j 1)) := by
  obtain ⟨p, q, rfl⟩ : ∃ (p : Fin 5000) (q : Fin 64), j = ix2 p q := ⟨j 0, j 1, eq_ix2 j⟩
  unfold k1_pay1
  refine StripDot.matmul_strip_apply (φ₁ := .f32) (φ₂ := .f32) none none .single (maximumf (F := Ideal) (φ := .f32) H Z) W _ x1 o ho (fun p k => ?_) hw p q
  rw [shapeCast_self]
  show max (x0 (ix2 p k)) (Ideal.ofBits .f32 0x00000000#32) = max (H (ix2 ⟨o + p.val, ho p⟩ k)) (Z (ix2 ⟨o + p.val, ho p⟩ k))
  rw [hx p k, Z_apply]

/-- The printed index maps over the 20 points: the strip of h₁ and the block of the result move with the point, W2 stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem row_lt (t : Fin cfg1.N) (p : Fin 5000) : 5000 * t.val + p.val < 100000 := by
  have hN : cfg1.N = 20 := N_1
  have ht := t.isLt
  have hp := p.isLt
  omega

/-- The strip of h₁ at point t: rows 5000·t … of the array as the region finds it. -/
theorem xblk_apply (c : Dev nD) (t : Fin cfg1.N) (p : Fin 5000) (k : Fin 128) :
    (iblk1 V c 0 t : Vec Ideal S5000x128 .f32) (ix2 p k)
      = (V c main_v46 : S100000x128.Idx → EReal) (ix2 ⟨5000 * t.val + p.val, row_lt t p⟩ k) := by
  obtain ⟨e0, e1, -⟩ := idx_facts t
  unfold iblk1
  rw [View.read_apply]
  show V c main_v46 _ = V c main_v46 _
  refine congrArg (V c main_v46) ?_
  funext a
  apply Fin.ext
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- W2's block at every point is all of W2. -/
theorem wblk_apply (c : Dev nD) (t : Fin cfg1.N) (k : Fin 128) (q : Fin 64) :
    (iblk1 V c 1 t : Vec Ideal S128x64 .f32) (ix2 k q) = (V c main_arg5 : S128x64.Idx → EReal) (ix2 k q) := by
  obtain ⟨-, -, e0, e1, -⟩ := idx_facts t
  unfold iblk1
  rw [View.read_apply]
  show V c main_arg5 _ = V c main_arg5 _
  refine congrArg (V c main_arg5) ?_
  funext a
  apply Fin.ext
  match a with
  | ⟨0, _⟩ => show win1_1.index t (0 : Fin 2) * 128 + 1 * k.val = k.val; rw [e0]; omega
  | ⟨1, _⟩ => show win1_1.index t (1 : Fin 2) * 64 + 1 * q.val = q.val; rw [e1]; omega

/-- What point t writes back is block t of relu(h₁) · W2. -/
theorem flushed_eq (c : Dev nD) (t : Fin cfg1.N) :
    (dat1 V c).flushed 2 t = ((cfg1.win 2).blk t).view.read (Elt Ideal) (G (V c main_v46) (V c main_arg5)) := by
  obtain ⟨-, -, -, -, e0, e1⟩ := idx_facts t
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  funext j
  show k1_pay1 (F := Ideal) (iblk1 V c 0 t) (iblk1 V c 1 t) j
    = G (V c main_v46) (V c main_arg5) (((cfg1.win 2).blk t).view.emb j)
  refine (pay_at (V c main_v46) (V c main_arg5) (iblk1 V c 0 t) (iblk1 V c 1 t) (5000 * t.val) (row_lt t) (xblk_apply V c t) (wblk_apply V c t) j).trans ?_
  refine congrArg (G (V c main_v46) (V c main_arg5)) ?_
  funext a
  apply Fin.ext
  match a with
  | ⟨0, _⟩ => show 5000 * t.val + (j 0).val = win1_2.index t (0 : Fin 2) * 5000 + 1 * (j 0).val; rw [e0]; omega
  | ⟨1, _⟩ => show (j 1).val = win1_2.index t (1 : Fin 2) * 64 + 1 * (j 1).val; rw [e1]; omega

/-- An index of the result is in point t's block iff its row is one of the block's 5000 and its column any. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- Every index of the result lies in the block of the point its row's strip belongs to. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_2 _, ?_⟩
  rw [mem_blk]
  obtain ⟨-, -, -, -, e0, e1⟩ := idx_facts ⟨(i 0).val / 5000, by rw [hN]; omega⟩
  intro a
  match a with
  | ⟨0, _⟩ => show win1_2.index _ (0 : Fin 2) * 5000 ≤ (i 0).val ∧ (i 0).val < win1_2.index _ (0 : Fin 2) * 5000 + 5000; rw [e0]; show (i 0).val / 5000 * 5000 ≤ (i 0).val ∧ (i 0).val < (i 0).val / 5000 * 5000 + 5000; omega
  | ⟨1, _⟩ => show win1_2.index _ (1 : Fin 2) * 64 ≤ (i 1).val ∧ (i 1).val < win1_2.index _ (1 : Fin 2) * 64 + 64; rw [e1]; omega

/-- The array the second pipeline leaves is relu(h₁) · W2. -/
theorem final (c : Dev nD) : (dat1 V c).arrAt 2 cfg1.N = G (V c main_v46) (V c main_arg5) :=
  (dat1 V c).arrAt_eq_of_cover 2 (G (V c main_v46) (V c main_arg5)) (fun t _ => flushed_eq V c t) cover

end Cert.KernelIdeal.Region1

end
-- ==== Proof.Region2.lean ====
/-
  The third dense product with its bias, h₂ · Wrt + brt, as the third pipeline computes it.

  At point t the pipeline fetches rows 5000·t … 5000·t + 4999 of h₂ (64 columns), all of Wrt and the bias as one row
  [1, 64]; it multiplies the strip by Wrt into a zero accumulator, adds the bias row to each of the 5000 rows and
  writes the 5000 × 64 block back as the same rows of the result. Row r of the product depends only on row r of the
  left factor and every row gets the same bias row, so the block is those rows of h₂ · Wrt + (the bias row on every
  row) for the whole array h₂; the 20 blocks tile the 100000 rows. Stated at any contents `V` the region may be
  entered with.
-/
import proofs.«108551_j9543417332457_1_alg».proof.Proof.Gen.KernelIdeal.Frame
import proofs.«108551_j9543417332457_1_alg».proof.Proof.LibStripDot
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The whole product plus the one bias row on every row. -/
abbrev G (H : S100000x64.Idx → EReal) (W : S64x64.Idx → EReal) (B : S1x64.Idx → EReal) : S100000x64.Idx → EReal :=
  addf (F := Ideal) (φ := .f32)
    (Host.dotGeneral (F := Ideal) (φ₁ := .f32) (φ₂ := .f32) (DotDims.plain 100000 64 64) none H W)
    (broadcastInDim S100000x64 ![0, 1] bcast_S1x64_S100000x64_0_1 B)

/-- The bias row spread over 100000 rows reads, at (r, q), the row's entry q. -/
theorem rows_apply (B : S1x64.Idx → EReal) (r : Fin 100000) (q : Fin 64) :
    broadcastInDim S100000x64 ![0, 1] bcast_S1x64_S100000x64_0_1 B (ix2 r q) = B (ix2 (0 : Fin 1) q) :=
  broadcastInDim_apply _ bcast_S1x64_S100000x64_0_1 B (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])

/-- The body's product and bias on a strip of rows o … o + 4999 of H is those rows of H · W + B. -/
theorem pay_at (H : S100000x64.Idx → EReal) (W : S64x64.Idx → EReal) (B : S1x64.Idx → EReal)
    (x0 : Vec Ideal S5000x64 .f32) (x1 : Vec Ideal S64x64 .f32) (x2 : Vec Ideal S1x64 .f32)
    (o : Nat) (ho : ∀ p : Fin 5000, o + p.val < 100000)
    (hx : ∀ (p : Fin 5000) (k : Fin 64), x0 (ix2 p k) = H (ix2 ⟨o + p.val, ho p⟩ k))
    (hw : ∀ (k : Fin 64) (q : Fin 64), x1 (ix2 k q) = W (ix2 k q))
    (hb : ∀ (u : Fin 1) (q : Fin 64), x2 (ix2 u q) = B (ix2 u q)) (j : S5000x64.Idx) :
    k2_pay1 (F := Ideal) x0 x1 x2 j = G H W B (ix2 ⟨o + (j 0).val, ho (j 0)⟩ (j 1)) := by
  obtain ⟨p, q, rfl⟩ : ∃ (p : Fin 5000) (q : Fin 64), j = ix2 p q := ⟨j 0, j 1, eq_ix2 j⟩
  unfold k2_pay1
  rw [shapeCast_self, shapeCast_self]
  show FloatOps.matmul (F := Ideal) (φ₁ := .f32) (φ₂ := .f32) dot_S5000x64_S64x64_S5000x64_1_0_0_1_n_n none x0 x1 (constant S5000x64 .f32 0x00000000#32) (ix2 p q)
      + broadcastTo S5000x64 x2 broadcasts_S1x64_S5000x64 (ix2 p q)
    = FloatOps.dotGeneral (F := Ideal) (φ₁ := .f32) (φ₂ := .f32) (DotDims.plain 100000 64 64) none .single H W (ix2 ⟨o + p.val, ho p⟩ q)
      + broadcastInDim S100000x64 ![0, 1] bcast_S1x64_S100000x64_0_1 B (ix2 ⟨o + p.val, ho p⟩ q)
  rw [rows_apply, broadcastTo_1b_ab_apply, hb]
  exact congrArg (· + B (ix2 (0 : Fin 1) q))
    (StripDot.matmul_strip_apply (φ₁ := .f32) (φ₂ := .f32) none none .single H W x0 x1 o ho hx hw p q)

/-- The printed index maps over the 20 points: the strip of h₂ and the block of the result move with the point, Wrt and
    the bias row stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem row_lt (t : Fin cfg2.N) (p : Fin 5000) : 5000 * t.val + p.val < 100000 := by
  have hN : cfg2.N = 20 := N_2
  have ht := t.isLt
  have hp := p.isLt
  omega

/-- The strip of h₂ at point t: rows 5000·t … of the array as the region finds it. -/
theorem xblk_apply (c : Dev nD) (t : Fin cfg2.N) (p : Fin 5000) (k : Fin 64) :
    (iblk2 V c 0 t : Vec Ideal S5000x64 .f32) (ix2 p k)
      = (V c main_v63 : S100000x64.Idx → EReal) (ix2 ⟨5000 * t.val + p.val, row_lt t p⟩ k) := by
  obtain ⟨e0, e1, -⟩ := idx_facts t
  unfold iblk2
  rw [View.read_apply]
  show V c main_v63 _ = V c main_v63 _
  refine congrArg (V c main_v63) ?_
  funext a
  apply Fin.ext
  match a with
  | ⟨0, _⟩ => show win2_0.index t (0 : Fin 2) * 5000 + 1 * p.val = 5000 * t.val + p.val; rw [e0]; omega
  | ⟨1, _⟩ => show win2_0.index t (1 : Fin 2) * 64 + 1 * k.val = k.val; rw [e1]; omega

/-- Wrt's block at every point is all of Wrt. -/
theorem wblk_apply (c : Dev nD) (t : Fin cfg2.N) (k : Fin 64) (q : Fin 64) :
    (iblk2 V c 1 t : Vec Ideal S64x64 .f32) (ix2 k q) = (V c main_arg7 : S64x64.Idx → EReal) (ix2 k q) := by
  obtain ⟨-, -, e0, e1, -⟩ := idx_facts t
  unfold iblk2
  rw [View.read_apply]
  show V c main_arg7 _ = V c main_arg7 _
  refine congrArg (V c main_arg7) ?_
  funext a
  apply Fin.ext
  match a with
  | ⟨0, _⟩ => show win2_1.index t (0 : Fin 2) * 64 + 1 * k.val = k.val; rw [e0]; omega
  | ⟨1, _⟩ => show win2_1.index t (1 : Fin 2) * 64 + 1 * q.val = q.val; rw [e1]; omega

/-- The bias row's block at every point is the whole row. -/
theorem bblk_apply (c : Dev nD) (t : Fin cfg2.N) (u : Fin 1) (q : Fin 64) :
    (iblk2 V c 2 t : Vec Ideal S1x64 .f32) (ix2 u q) = (V c main_v64 : S1x64.Idx → EReal) (ix2 u q) := by
  obtain ⟨-, -, -, -, e0, e1, -⟩ := idx_facts t
  unfold iblk2
  rw [View.read_apply]
  show V c main_v64 _ = V c main_v64 _
  refine congrArg (V c main_v64) ?_
  funext a
  apply Fin.ext
  match a with
  | ⟨0, _⟩ => show win2_2.index t (0 : Fin 2) * 1 + 1 * u.val = u.val; rw [e0]; omega
  | ⟨1, _⟩ => show win2_2.index t (1 : Fin 2) * 64 + 1 * q.val = q.val; rw [e1]; omega

/-- What point t writes back is block t of h₂ · Wrt + the bias row. -/
theorem flushed_eq (c : Dev nD) (t : Fin cfg2.N) :
    (dat2 V c).flushed 3 t = ((cfg2.win 3).blk t).view.read (Elt Ideal) (G (V c main_v63) (V c main_arg7) (V c main_v64)) := by
  obtain ⟨-, -, -, -, -, -, e0, e1⟩ := idx_facts t
  show (cfg2.win 3).cut (grid2.coords t) ((dat2 V c).after 3 t) = _
  rw [after2_3]
  unfold out2_3
  rw [View.canon_unit_zero hz]
  simp only [View.ld_unit_zero (S := S5000x64) hz, View.ld_unit_zero (S := S64x64) hz, View.ld_unit_zero (S := S1x64) hz]
  funext j
  show k2_pay1 (F := Ideal) (iblk2 V c 0 t) (iblk2 V c 1 t) (iblk2 V c 2 t) j
    = G (V c main_v63) (V c main_arg7) (V c main_v64) (((cfg2.win 3).blk t).view.emb j)
  refine (pay_at (V c main_v63) (V c main_arg7) (V c main_v64) (iblk2 V c 0 t) (iblk2 V c 1 t) (iblk2 V c 2 t) (5000 * t.val) (row_lt t)
    (xblk_apply V c t) (wblk_apply V c t) (bblk_apply V c t) j).trans ?_
  refine congrArg (G (V c main_v63) (V c main_arg7) (V c main_v64)) ?_
  funext a
  apply Fin.ext
  match a with
  | ⟨0, _⟩ => show 5000 * t.val + (j 0).val = win2_3.index t (0 : Fin 2) * 5000 + 1 * (j 0).val; rw [e0]; omega
  | ⟨1, _⟩ => show (j 1).val = win2_3.index t (1 : Fin 2) * 64 + 1 * (j 1).val; rw [e1]; omega

/-- An index of the result is in point t's block iff its row is one of the block's 5000 and its column any. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v65).slice (win2_3.rect t)).set ↔ _
  rw [View.set_slice_whole, Rect.mem_set_unit]
  exact Iff.rfl

/-- Every index of the result lies in the block of the point its row's strip belongs to. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_3 _, ?_⟩
  rw [mem_blk]
  obtain ⟨-, -, -, -, -, -, e0, e1⟩ := idx_facts ⟨(i 0).val / 5000, by rw [hN]; omega⟩
  intro a
  match a with
  | ⟨0, _⟩ => show win2_3.index _ (0 : Fin 2) * 5000 ≤ (i 0).val ∧ (i 0).val < win2_3.index _ (0 : Fin 2) * 5000 + 5000; rw [e0]; show (i 0).val / 5000 * 5000 ≤ (i 0).val ∧ (i 0).val < (i 0).val / 5000 * 5000 + 5000; omega
  | ⟨1, _⟩ => show win2_3.index _ (1 : Fin 2) * 64 ≤ (i 1).val ∧ (i 1).val < win2_3.index _ (1 : Fin 2) * 64 + 64; rw [e1]; omega

/-- The array the third pipeline leaves is h₂ · Wrt + the bias row on every row. -/
theorem final (c : Dev nD) : (dat2 V c).arrAt 3 cfg2.N = G (V c main_v63) (V c main_arg7) (V c main_v64) :=
  (dat2 V c).arrAt_eq_of_cover 3 (G (V c main_v63) (V c main_arg7) (V c main_v64)) (fun t _ => flushed_eq V c t) cover

end Cert.KernelIdeal.Region2

end
-- ==== Proof.Stages.lean ====
/-
  What the idealized kernel's buffers hold at each boundary of its run, as functions of the nine arguments.

  The run alternates stretches of host operations with the three pipelines. A stretch computes each buffer it writes
  from the buffers it reads and leaves every other buffer alone; a pipeline replaces its result array (by the dense
  product of its two input arrays, as the three region modules show) and leaves every other buffer alone. Walking from
  the launch to the return: the opening stretches compute the edge ends, the degrees and the edge weights from the
  edge list; the first pipeline x · W1; the next stretch the first aggregation h₁; the second pipeline relu(h₁) · W2;
  the next stretch the second aggregation h₂ and the bias brt as a row; the third pipeline h₂ · Wrt + brt; the last
  stretch the mean over each graph. Each step is one stage of `Gcn.result`, so the result buffer ends at `Gcn.result`
  of the arguments. The edge ends and weights are computed once and read by both aggregations: they are kept by
  everything in between.
-/
import proofs.«108551_j9543417332457_1_alg».proof.Proof.Gen.KernelIdeal.Frame
import proofs.«108551_j9543417332457_1_alg».proof.Proof.Spec
import proofs.«108551_j9543417332457_1_alg».proof.Proof.Region0
import proofs.«108551_j9543417332457_1_alg».proof.Proof.Region1
import proofs.«108551_j9543417332457_1_alg».proof.Proof.Region2
import Idealize.ShloMosaic.Lib.StableHlo.Run
import Idealize.ShloMosaic.Lib.ValueLayout
import Idealize.ShloMosaic.Lib.Pipeline.Value

noncomputable section

namespace Cert.KernelIdeal.Stages

open Cert.KernelIdeal Cert.KernelIdeal.Gen Idealize.ShloMosaic Idealize.ShloMosaic.TcCoe Idealize.SL.Sem
open Idealize.ShloMosaic.StableHlo Idealize.ShloMosaic.ValueIdx

section Weights

variable {F : FTy → Type} [FloatOps F] (U : Valuation τ sig (Elt F))

/-- What one simplification pass over a list of host operations leaves unread — the contents of a `concatenate`'s
    operands, which sit inside its list of pieces — read by rewriting, one operation and one reference at a time. -/
macro "results_residue" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

set_option maxHeartbeats 2000000 in
/-- The three opening stretches, run from any contents `U`, leave the edge weights dis(src e) · dis(dst e) where the
    two aggregations read them. For any reading of the floats: the operations are the same on both sides. -/
theorem open_norm : after hostOps0_2 (after hostOps0_1 (after hostOps0 U)) (Proc.devRef .tc main_v29) = Cert.Gcn.norm (F := F) (U (Proc.devRef .tc main_arg1)) := by
  after_results_simp
  results_residue
  rfl

end Weights

section Stretches

variable (U : Valuation τ sig (Elt Ideal))

/-! ## The opening stretches: edge ends, degrees, edge weights

The three stretches before the first pipeline, run from any contents `U`. -/

set_option maxHeartbeats 1000000 in
/-- They leave the sources with self-loops where the later gathers read them. -/
theorem open_src : after hostOps0_2 (after hostOps0_1 (after hostOps0 U)) (Proc.devRef .tc main_v3) = Cert.Gcn.src (F := Ideal) (U (Proc.devRef .tc main_arg1)) := by
  after_results_simp
  rfl

set_option maxHeartbeats 1000000 in
/-- … and the targets with self-loops. -/
theorem open_dst : after hostOps0_2 (after hostOps0_1 (after hostOps0 U)) (Proc.devRef .tc main_v6) = Cert.Gcn.dst (F := Ideal) (U (Proc.devRef .tc main_arg1)) := by
  after_results_simp
  rfl

set_option maxHeartbeats 1000000 in
/-- They do not write argument 0. -/
theorem open_arg0 : after hostOps0_2 (after hostOps0_1 (after hostOps0 U)) (Proc.devRef .tc main_arg0) = U (Proc.devRef .tc main_arg0) := by
  after_results_simp

set_option maxHeartbeats 1000000 in
/-- They do not write argument 2. -/
theorem open_arg2 : after hostOps0_2 (after hostOps0_1 (after hostOps0 U)) (Proc.devRef .tc main_arg2) = U (Proc.devRef .tc main_arg2) := by
  after_results_simp

set_option maxHeartbeats 1000000 in
/-- They do not write argument 3. -/
theorem open_arg3 : after hostOps0_2 (after hostOps0_1 (after hostOps0 U)) (Proc.devRef .tc main_arg3) = U (Proc.devRef .tc main_arg3) := by
  after_results_simp

set_option maxHeartbeats 1000000 in
/-- They do not write argument 4. -/
theorem open_arg4 : after hostOps0_2 (after hostOps0_1 (after hostOps0 U)) (Proc.devRef .tc main_arg4) = U (Proc.devRef .tc main_arg4) := by
  after_results_simp

set_option maxHeartbeats 1000000 in
/-- They do not write argument 5. -/
theorem open_arg5 : after hostOps0_2 (after hostOps0_1 (after hostOps0 U)) (Proc.devRef .tc main_arg5) = U (Proc.devRef .tc main_arg5) := by
  after_results_simp

set_option maxHeartbeats 1000000 in
/-- They do not write argument 6. -/
theorem open_arg6 : after hostOps0_2 (after hostOps0_1 (after hostOps0 U)) (Proc.devRef .tc main_arg6) = U (Proc.devRef .tc main_arg6) := by
  after_results_simp

set_option maxHeartbeats 1000000 in
/-- They do not write argument 7. -/
theorem open_arg7 : after hostOps0_2 (after hostOps0_1 (after hostOps0 U)) (Proc.devRef .tc main_arg7) = U (Proc.devRef .tc main_arg7) := by
  after_results_simp

set_option maxHeartbeats 1000000 in
/-- They do not write argument 8. -/
theorem open_arg8 : after hostOps0_2 (after hostOps0_1 (after hostOps0 U)) (Proc.devRef .tc main_arg8) = U (Proc.devRef .tc main_arg8) := by
  after_results_simp

/-! ## The stretch after the first pipeline: the first aggregation -/

set_option maxHeartbeats 1000000 in
/-- From the product the first pipeline left, the edge ends, the edge weights and b1 it computes conv(·, b1). -/
theorem conv1 : after hostOps1 U (Proc.devRef .tc main_v46)
    = Cert.Gcn.agg128 (F := Ideal) (U (Proc.devRef .tc main_v30)) (U (Proc.devRef .tc main_v3)) (U (Proc.devRef .tc main_v6)) (U (Proc.devRef .tc main_v29)) (U (Proc.devRef .tc main_arg4)) := by
  after_results
  rfl

set_option maxHeartbeats 1000000 in
theorem keep1_v3 : after hostOps1 U (Proc.devRef .tc main_v3) = U (Proc.devRef .tc main_v3) := by
  after_results_simp

set_option maxHeartbeats 1000000 in
theorem keep1_v6 : after hostOps1 U (Proc.devRef .tc main_v6) = U (Proc.devRef .tc main_v6) := by
  after_results_simp

set_option maxHeartbeats 1000000 in
theorem keep1_v29 : after hostOps1 U (Proc.devRef .tc main_v29) = U (Proc.devRef .tc main_v29) := by
  after_results_simp

set_option maxHeartbeats 1000000 in
theorem keep1_arg2 : after hostOps1 U (Proc.devRef .tc main_arg2) = U (Proc.devRef .tc main_arg2) := by
  after_results_simp

set_option maxHeartbeats 1000000 in
theorem keep1_arg5 : after hostOps1 U (Proc.devRef .tc main_arg5) = U (Proc.devRef .tc main_arg5) := by
  after_results_simp

set_option maxHeartbeats 1000000 in
theorem keep1_arg6 : after hostOps1 U (Proc.devRef .tc main_arg6) = U (Proc.devRef .tc main_arg6) := by
  after_results_simp

set_option maxHeartbeats 1000000 in
theorem keep1_arg7 : after hostOps1 U (Proc.devRef .tc main_arg7) = U (Proc.devRef .tc main_arg7) := by
  after_results_simp

set_option maxHeartbeats 1000000 in
theorem keep1_arg8 : after hostOps1 U (Proc.devRef .tc main_arg8) = U (Proc.devRef .tc main_arg8) := by
  after_results_simp

/-! ## The stretch after the second pipeline: the second aggregation, and the bias brt as one row -/

set_option maxHeartbeats 1000000 in
/-- From the product the second pipeline left, the edge ends, the edge weights and b2 it computes conv(·, b2). -/
theorem conv2 : after hostOps2 U (Proc.devRef .tc main_v63)
    = Cert.Gcn.agg64 (F := Ideal) (U (Proc.devRef .tc main_v47)) (U (Proc.devRef .tc main_v3)) (U (Proc.devRef .tc main_v6)) (U (Proc.devRef .tc main_v29)) (U (Proc.devRef .tc main_arg6)) := by
  after_results
  rfl

set_option maxHeartbeats 1000000 in
/-- It also recasts brt, a vector of 64, as one row [1, 64]: entry (0, q) is brt q, which is what spreading the vector
    along axis 1 of a [1, 64] array gives. -/
theorem biasrow : after hostOps2 U (Proc.devRef .tc main_v64) = broadcastInDim S1x64 ![1] bcast_S64_S1x64_1 (U (Proc.devRef .tc main_arg8)) := by
  after_results
  funext (i : S1x64.Idx)
  obtain ⟨u, q, rfl⟩ : ∃ (u : Fin 1) (q : Fin 64), i = ix2 u q := ⟨i 0, i 1, eq_ix2 i⟩
  show shapeCast S1x64 (U (Proc.devRef .tc main_arg8) : S64.Idx → EReal) shapeCasts_S64_S1x64 (ix2 u q) = _
  rw [shapeCast_a_1a_apply]
  exact (broadcastInDim_apply _ bcast_S64_S1x64_1 (U (Proc.devRef .tc main_arg8) : S64.Idx → EReal) (ix2 u q) (ix1 q) (fun a => match a with
    | ⟨0, _⟩ => by show q.val = if (64 : Nat) = 1 then 0 else q.val; rw [if_neg (by decide)])).symm

set_option maxHeartbeats 1000000 in
theorem keep2_arg2 : after hostOps2 U (Proc.devRef .tc main_arg2) = U (Proc.devRef .tc main_arg2) := by
  after_results_simp

set_option maxHeartbeats 1000000 in
theorem keep2_arg7 : after hostOps2 U (Proc.devRef .tc main_arg7) = U (Proc.devRef .tc main_arg7) := by
  after_results_simp

/-! ## The last stretch: the mean over each graph -/

set_option maxHeartbeats 1000000 in
/-- From the rows the third pipeline left and the graph of each node it computes the pooled means. -/
theorem tail : after hostOps3 U (Proc.devRef .tc main_v79)
    = Cert.Gcn.pool (F := Ideal) (U (Proc.devRef .tc main_v65)) (U (Proc.devRef .tc main_arg2)) := by
  after_results
  rfl

end Stretches

section Boundaries

variable (m : (ℓ : Loc nD τ sig) → Buf (Elt Ideal) ℓ) (ρ : Dev nD → PrngReg) (c : Dev nD)

/-! ## The contents at each boundary, from the launch to the return -/

/-! ### At the first pipeline's entry -/

theorem at3_src : W3 m ρ c (Proc.devRef .tc main_v3) = Cert.Gcn.src (F := Ideal) (m ((c : Thread nD τ).loc main_arg1)) := open_src (W0 m ρ c)
theorem at3_dst : W3 m ρ c (Proc.devRef .tc main_v6) = Cert.Gcn.dst (F := Ideal) (m ((c : Thread nD τ).loc main_arg1)) := open_dst (W0 m ρ c)
theorem at3_norm : W3 m ρ c (Proc.devRef .tc main_v29) = Cert.Gcn.norm (F := Ideal) (m ((c : Thread nD τ).loc main_arg1)) := open_norm (F := Ideal) (W0 m ρ c)
theorem at3_arg0 : W3 m ρ c (Proc.devRef .tc main_arg0) = (m ((c : Thread nD τ).loc main_arg0)) := open_arg0 (W0 m ρ c)
theorem at3_arg2 : W3 m ρ c (Proc.devRef .tc main_arg2) = (m ((c : Thread nD τ).loc main_arg2)) := open_arg2 (W0 m ρ c)
theorem at3_arg3 : W3 m ρ c (Proc.devRef .tc main_arg3) = (m ((c : Thread nD τ).loc main_arg3)) := open_arg3 (W0 m ρ c)
theorem at3_arg4 : W3 m ρ c (Proc.devRef .tc main_arg4) = (m ((c : Thread nD τ).loc main_arg4)) := open_arg4 (W0 m ρ c)
theorem at3_arg5 : W3 m ρ c (Proc.devRef .tc main_arg5) = (m ((c : Thread nD τ).loc main_arg5)) := open_arg5 (W0 m ρ c)
theorem at3_arg6 : W3 m ρ c (Proc.devRef .tc main_arg6) = (m ((c : Thread nD τ).loc main_arg6)) := open_arg6 (W0 m ρ c)
theorem at3_arg7 : W3 m ρ c (Proc.devRef .tc main_arg7) = (m ((c : Thread nD τ).loc main_arg7)) := open_arg7 (W0 m ρ c)
theorem at3_arg8 : W3 m ρ c (Proc.devRef .tc main_arg8) = (m ((c : Thread nD τ).loc main_arg8)) := open_arg8 (W0 m ρ c)

/-! ### At the first pipeline's exit: its result array holds x · W1, the other buffers what they held -/

theorem at4_lin1 : W4 m ρ c (Proc.devRef .tc main_v30) = Cert.Gcn.lin1 (F := Ideal) (m ((c : Thread nD τ).loc main_arg0)) (m ((c : Thread nD τ).loc main_arg3)) := by
  refine (W4_arr m ρ c 2).trans ((Cert.KernelIdeal.Region0.final (V3 m ρ) c).trans ?_)
  show Cert.KernelIdeal.Region0.G (W3 m ρ c (Proc.devRef .tc main_arg0)) (W3 m ρ c (Proc.devRef .tc main_arg3)) = _
  rw [at3_arg0, at3_arg3]
  rfl
theorem at4_src : W4 m ρ c (Proc.devRef .tc main_v3) = Cert.Gcn.src (F := Ideal) (m ((c : Thread nD τ).loc main_arg1)) := (W4_of_ne m ρ c main_v3 (by decide)).trans (at3_src m ρ c)
theorem at4_dst : W4 m ρ c (Proc.devRef .tc main_v6) = Cert.Gcn.dst (F := Ideal) (m ((c : Thread nD τ).loc main_arg1)) := (W4_of_ne m ρ c main_v6 (by decide)).trans (at3_dst m ρ c)
theorem at4_norm : W4 m ρ c (Proc.devRef .tc main_v29) = Cert.Gcn.norm (F := Ideal) (m ((c : Thread nD τ).loc main_arg1)) := (W4_of_ne m ρ c main_v29 (by decide)).trans (at3_norm m ρ c)
theorem at4_arg2 : W4 m ρ c (Proc.devRef .tc main_arg2) = (m ((c : Thread nD τ).loc main_arg2)) := (W4_of_ne m ρ c main_arg2 (by decide)).trans (at3_arg2 m ρ c)
theorem at4_arg4 : W4 m ρ c (Proc.devRef .tc main_arg4) = (m ((c : Thread nD τ).loc main_arg4)) := (W4_of_ne m ρ c main_arg4 (by decide)).trans (at3_arg4 m ρ c)
theorem at4_arg5 : W4 m ρ c (Proc.devRef .tc main_arg5) = (m ((c : Thread nD τ).loc main_arg5)) := (W4_of_ne m ρ c main_arg5 (by decide)).trans (at3_arg5 m ρ c)
theorem at4_arg6 : W4 m ρ c (Proc.devRef .tc main_arg6) = (m ((c : Thread nD τ).loc main_arg6)) := (W4_of_ne m ρ c main_arg6 (by decide)).trans (at3_arg6 m ρ c)
theorem at4_arg7 : W4 m ρ c (Proc.devRef .tc main_arg7) = (m ((c : Thread nD τ).loc main_arg7)) := (W4_of_ne m ρ c main_arg7 (by decide)).trans (at3_arg7 m ρ c)
theorem at4_arg8 : W4 m ρ c (Proc.devRef .tc main_arg8) = (m ((c : Thread nD τ).loc main_arg8)) := (W4_of_ne m ρ c main_arg8 (by decide)).trans (at3_arg8 m ρ c)

/-! ### At the second pipeline's entry: h₁ is computed -/

theorem at5_h1 : W5 m ρ c (Proc.devRef .tc main_v46) = (Cert.Gcn.h1 (F := Ideal) (m ((c : Thread nD τ).loc main_arg0)) (m ((c : Thread nD τ).loc main_arg1)) (m ((c : Thread nD τ).loc main_arg3)) (m ((c : Thread nD τ).loc main_arg4))) := by
  refine (conv1 (W4 m ρ c)).trans ?_
  rw [at4_lin1, at4_src, at4_dst, at4_norm, at4_arg4]
  rfl
theorem at5_src : W5 m ρ c (Proc.devRef .tc main_v3) = Cert.Gcn.src (F := Ideal) (m ((c : Thread nD τ).loc main_arg1)) := (keep1_v3 (W4 m ρ c)).trans (at4_src m ρ c)
theorem at5_dst : W5 m ρ c (Proc.devRef .tc main_v6) = Cert.Gcn.dst (F := Ideal) (m ((c : Thread nD τ).loc main_arg1)) := (keep1_v6 (W4 m ρ c)).trans (at4_dst m ρ c)
theorem at5_norm : W5 m ρ c (Proc.devRef .tc main_v29) = Cert.Gcn.norm (F := Ideal) (m ((c : Thread nD τ).loc main_arg1)) := (keep1_v29 (W4 m ρ c)).trans (at4_norm m ρ c)
theorem at5_arg2 : W5 m ρ c (Proc.devRef .tc main_arg2) = (m ((c : Thread nD τ).loc main_arg2)) := (keep1_arg2 (W4 m ρ c)).trans (at4_arg2 m ρ c)
theorem at5_arg5 : W5 m ρ c (Proc.devRef .tc main_arg5) = (m ((c : Thread nD τ).loc main_arg5)) := (keep1_arg5 (W4 m ρ c)).trans (at4_arg5 m ρ c)
theorem at5_arg6 : W5 m ρ c (Proc.devRef .tc main_arg6) = (m ((c : Thread nD τ).loc main_arg6)) := (keep1_arg6 (W4 m ρ c)).trans (at4_arg6 m ρ c)
theorem at5_arg7 : W5 m ρ c (Proc.devRef .tc main_arg7) = (m ((c : Thread nD τ).loc main_arg7)) := (keep1_arg7 (W4 m ρ c)).trans (at4_arg7 m ρ c)
theorem at5_arg8 : W5 m ρ c (Proc.devRef .tc main_arg8) = (m ((c : Thread nD τ).loc main_arg8)) := (keep1_arg8 (W4 m ρ c)).trans (at4_arg8 m ρ c)

/-! ### At the second pipeline's exit: its result array holds relu(h₁) · W2 -/

theorem at6_lin2 : W6 m ρ c (Proc.devRef .tc main_v47) = Cert.Gcn.lin2 (F := Ideal) (Cert.Gcn.h1 (F := Ideal) (m ((c : Thread nD τ).loc main_arg0)) (m ((c : Thread nD τ).loc main_arg1)) (m ((c : Thread nD τ).loc main_arg3)) (m ((c : Thread nD τ).loc main_arg4))) (m ((c : Thread nD τ).loc main_arg5)) := by
  refine (W6_arr m ρ c 2).trans ((Cert.KernelIdeal.Region1.final (V5 m ρ) c).trans ?_)
  show Cert.KernelIdeal.Region1.G (W5 m ρ c (Proc.devRef .tc main_v46)) (W5 m ρ c (Proc.devRef .tc main_arg5)) = _
  rw [at5_h1, at5_arg5]
  rfl
theorem at6_src : W6 m ρ c (Proc.devRef .tc main_v3) = Cert.Gcn.src (F := Ideal) (m ((c : Thread nD τ).loc main_arg1)) := (W6_of_ne m ρ c main_v3 (by decide)).trans (at5_src m ρ c)
theorem at6_dst : W6 m ρ c (Proc.devRef .tc main_v6) = Cert.Gcn.dst (F := Ideal) (m ((c : Thread nD τ).loc main_arg1)) := (W6_of_ne m ρ c main_v6 (by decide)).trans (at5_dst m ρ c)
theorem at6_norm : W6 m ρ c (Proc.devRef .tc main_v29) = Cert.Gcn.norm (F := Ideal) (m ((c : Thread nD τ).loc main_arg1)) := (W6_of_ne m ρ c main_v29 (by decide)).trans (at5_norm m ρ c)
theorem at6_arg2 : W6 m ρ c (Proc.devRef .tc main_arg2) = (m ((c : Thread nD τ).loc main_arg2)) := (W6_of_ne m ρ c main_arg2 (by decide)).trans (at5_arg2 m ρ c)
theorem at6_arg6 : W6 m ρ c (Proc.devRef .tc main_arg6) = (m ((c : Thread nD τ).loc main_arg6)) := (W6_of_ne m ρ c main_arg6 (by decide)).trans (at5_arg6 m ρ c)
theorem at6_arg7 : W6 m ρ c (Proc.devRef .tc main_arg7) = (m ((c : Thread nD τ).loc main_arg7)) := (W6_of_ne m ρ c main_arg7 (by decide)).trans (at5_arg7 m ρ c)
theorem at6_arg8 : W6 m ρ c (Proc.devRef .tc main_arg8) = (m ((c : Thread nD τ).loc main_arg8)) := (W6_of_ne m ρ c main_arg8 (by decide)).trans (at5_arg8 m ρ c)

/-! ### At the third pipeline's entry: h₂ is computed, and brt stands as one row -/

theorem at7_h2 : W7 m ρ c (Proc.devRef .tc main_v63) = (Cert.Gcn.h2 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  refine (conv2 (W6 m ρ c)).trans ?_
  rw [at6_lin2, at6_src, at6_dst, at6_norm, at6_arg6]
  rfl
theorem at7_biasrow : W7 m ρ c (Proc.devRef .tc main_v64) = broadcastInDim S1x64 ![1] bcast_S64_S1x64_1 (m ((c : Thread nD τ).loc main_arg8)) := by
  refine (biasrow (W6 m ρ c)).trans ?_
  rw [at6_arg8]
theorem at7_arg7 : W7 m ρ c (Proc.devRef .tc main_arg7) = (m ((c : Thread nD τ).loc main_arg7)) := (keep2_arg7 (W6 m ρ c)).trans (at6_arg7 m ρ c)
theorem at7_arg2 : W7 m ρ c (Proc.devRef .tc main_arg2) = (m ((c : Thread nD τ).loc main_arg2)) := (keep2_arg2 (W6 m ρ c)).trans (at6_arg2 m ρ c)

/-! ### At the third pipeline's exit: its result array holds h₂ · Wrt + brt -/

theorem at8_lin3 : W8 m ρ c (Proc.devRef .tc main_v65) = Cert.Gcn.lin3 (F := Ideal) (Cert.Gcn.h2 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) := by
  refine (W8_arr m ρ c 3).trans ((Cert.KernelIdeal.Region2.final (V7 m ρ) c).trans ?_)
  show Cert.KernelIdeal.Region2.G (W7 m ρ c (Proc.devRef .tc main_v63)) (W7 m ρ c (Proc.devRef .tc main_arg7)) (W7 m ρ c (Proc.devRef .tc main_v64)) = _
  rw [at7_h2, at7_arg7, at7_biasrow]
  rfl
theorem at8_arg2 : W8 m ρ c (Proc.devRef .tc main_arg2) = (m ((c : Thread nD τ).loc main_arg2)) := (W8_of_ne m ρ c main_arg2 (by decide)).trans (at7_arg2 m ρ c)

/-! ### At the return -/

/-- The result buffer ends holding the network's output of the nine arguments. -/
theorem at9_result : W9 m ρ c (Proc.devRef .tc main_v79)
    = Cert.Gcn.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (tail (W8 m ρ c)).trans ?_
  rw [at8_lin3, at8_arg2]
  rfl

end Boundaries

end Cert.KernelIdeal.Stages

end
-- ==== Proof.lean ====
/-
  A two-layer graph convolution with a linear layer and a mean pool, tiled, against the same network untiled.

  Both programs append a self-loop per node to the edge list, count each node's degree, weigh edge e by
  deg(src e)^(-1/2) · deg(dst e)^(-1/2) (0 where a degree is 0), and compute

      h₁ = conv(x·W1, b1),   h₂ = conv(relu(h₁)·W2, b2),   h₃ = h₂·Wrt + brt,   result = mean of h₃'s rows per graph,

  where conv(H, b)(v, ·) = Σ_{e : dst e = v} H(src e, ·) · weight(e) + b. The kernel computes the three dense products
  in pipelines over 20 strips of 5000 rows (the relu inside the second, the bias brt inside the third); the reference
  computes each as one product of whole arrays. Since row r of a product depends only on row r of its left factor,
  each strip's block is that strip of the whole product, so the two programs apply the same operations to the same
  arrays: over the extended reals their results are equal with no condition on the inputs (no sum is regrouped
  beyond being cut into rows, nothing is distributed or cancelled), and the precondition is not opened.

  The kernel's run: `KernelRun` (the run with the result kept), `Region0` / `Region1` / `Region2` (each pipeline's
  array is the whole product), `Stages` (the contents at every boundary, ending at `Gcn.result` of the arguments).
  The reference's run: `RefRun`, and `RefIsSpec` (its result term is `Gcn.result` of the arguments). `Spec` defines
  `Gcn.result`. No rewrite was applied when the kernel was idealized, so the idealization conjunct is `True`.
-/
import proofs.«108551_j9543417332457_1_alg».proof.Defs
import proofs.«108551_j9543417332457_1_alg».proof.Proof.Gen.Kernel
import proofs.«108551_j9543417332457_1_alg».proof.Proof.Gen.Kernel.Skeleton
import proofs.«108551_j9543417332457_1_alg».proof.Proof.Gen.Kernel.Launch
import proofs.«108551_j9543417332457_1_alg».proof.Proof.Gen.Kernel.Points
import proofs.«108551_j9543417332457_1_alg».proof.Proof.Gen.Kernel.Frame
import proofs.«108551_j9543417332457_1_alg».proof.Proof.Gen.KernelIdeal
import proofs.«108551_j9543417332457_1_alg».proof.Proof.Gen.KernelIdeal.Skeleton
import proofs.«108551_j9543417332457_1_alg».proof.Proof.Gen.KernelIdeal.Launch
import proofs.«108551_j9543417332457_1_alg».proof.Proof.Gen.KernelIdeal.Points
import proofs.«108551_j9543417332457_1_alg».proof.Proof.Gen.KernelIdeal.Frame
import proofs.«108551_j9543417332457_1_alg».proof.Proof.Gen.ReferenceIdeal
import proofs.«108551_j9543417332457_1_alg».proof.Proof.Gen.Pre_finite_inputs
import proofs.«108551_j9543417332457_1_alg».proof.Proof.RefRun
import proofs.«108551_j9543417332457_1_alg».proof.Proof.RefIsSpec
import proofs.«108551_j9543417332457_1_alg».proof.Proof.KernelRun
import proofs.«108551_j9543417332457_1_alg».proof.Proof.Stages
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealized kernel is the kernel's own text read over the extended reals: nothing was rewritten. -/
theorem preserves : Cert.preserves_Kernel_KernelIdeal := trivial

/-- From memories that agree on the nine arguments both programs end with the result buffer at `Gcn.result` of the
    arguments: the kernel by the boundary walk, the reference by unfolding its composed term. -/
theorem algebraic : Cert.algebraic_KernelIdeal_ReferenceIdeal := by
  intro m ρ m' ρ' _ hagree
  refine ⟨fun c => Cert.Gcn.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Stages.at9_result m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.RunP.run (F := Ideal) m' ρ')
    obtain ⟨e0, e1, e2, e3, e4, e5, e6, e7, e8⟩ := hagree c
    rw [Cert.ReferenceIdeal.RefValue.result_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
